-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg6 : FVec F S64x64 .f32) (main_arg7 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  main_v28

def fn {F : FTy → Type} [FloatOps F] (main_arg0 : FVec F S100000x64 .f32) (main_arg1 : IVec S2x1600000 32) (main_arg2 : IVec S2x1600000 32) (main_arg3 : FVec F S64x64 .f32) (main_arg4 : FVec F S64x64 .f32) (main_arg5 : FVec F S64x64 .f32) (main_arg6 : FVec F S64x64 .f32) (main_arg7 : FVec F S64x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S64x128 : Shape := ⟨2, ![64, 128]⟩
abbrev S100000x128 : Shape := ⟨2, ![100000, 128]⟩
abbrev S4000x64 : Shape := ⟨2, ![4000, 64]⟩
abbrev S4000x128 : Shape := ⟨2, ![4000, 128]⟩
abbrev S1600000x128 : Shape := ⟨2, ![1600000, 128]⟩

abbrev nBuf : Space → Nat
  | .hbm => 71
  | .vmem => 14
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S2x1600000, .i32⟩
  | .hbm, ⟨3, _⟩ => ⟨S64x64, .f32⟩
  | .hbm, ⟨4, _⟩ => ⟨S64x64, .f32⟩
  | .hbm, ⟨5, _⟩ => ⟨S64x64, .f32⟩
  | .hbm, ⟨6, _⟩ => ⟨S64x64, .f32⟩
  | .hbm, ⟨7, _⟩ => ⟨S64x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S64x64, .f32⟩
  | .hbm, ⟨26, _⟩ => ⟨S64x64, .f32⟩
  | .hbm, ⟨27, _⟩ => ⟨S64x64, .f32⟩
  | .hbm, ⟨28, _⟩ => ⟨S64x64, .f32⟩
  | .hbm, ⟨29, _⟩ => ⟨S64x64, .f32⟩
  | .hbm, ⟨30, _⟩ => ⟨S64x128, .f32⟩
  | .hbm, ⟨31, _⟩ => ⟨S100000x64, .f32⟩
  | .hbm, ⟨32, _⟩ => ⟨S100000x64, .bf16⟩
  | .hbm, ⟨33, _⟩ => ⟨S100000x128, .bf16⟩
  | .hbm, ⟨34, _⟩ => ⟨S1x1600000, .i32⟩
  | .hbm, ⟨35, _⟩ => ⟨S1600000, .i32⟩
  | .hbm, ⟨36, _⟩ => ⟨S1x1600000, .i32⟩
  | .hbm, ⟨37, _⟩ => ⟨S1600000, .i32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x64, .bf16⟩
  | .hbm, ⟨47, _⟩ => ⟨S1600000x64, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .bf16⟩
  | .hbm, ⟨57, _⟩ => ⟨S1600000x128, .f32⟩
  | .hbm, ⟨58, _⟩ => ⟨S1600000x64, .f32⟩
  | .hbm, ⟨59, _⟩ => ⟨S1600000x64, .f32⟩
  | .hbm, ⟨60, _⟩ => ⟨S1600000x64, .f32⟩
  | .hbm, ⟨61, _⟩ => ⟨S_, .f32⟩
  | .hbm, ⟨62, _⟩ => ⟨S1600000, .f32⟩
  | .hbm, ⟨63, _⟩ => ⟨S1600000x1, .f32⟩
  | .hbm, ⟨64, _⟩ => ⟨S1600000x64, .f32⟩
  | .hbm, ⟨65, _⟩ => ⟨S1600000x64, .f32⟩
  | .hbm, ⟨66, _⟩ => ⟨S_, .f32⟩
  | .hbm, ⟨67, _⟩ => ⟨S100000x64, .f32⟩
  | .hbm, ⟨68, _⟩ => ⟨S1600000x1, .i32⟩
  | .hbm, ⟨69, _⟩ => ⟨S100000x64, .f32⟩
  | .hbm, ⟨70, _⟩ => ⟨S100000x64, .f32⟩
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S64x64, .f32⟩
  | .local _ .vmem, ⟨5, _⟩ => ⟨S64x64, .f32⟩
  | .local _ .vmem, ⟨6, _⟩ => ⟨S64x64, .f32⟩
  | .local _ .vmem, ⟨7, _⟩ => ⟨S64x128, .f32⟩
  | .local _ .vmem, ⟨8, _⟩ => ⟨S4000x64, .f32⟩
  | .local _ .vmem, ⟨9, _⟩ => ⟨S4000x64, .f32⟩
  | .local _ .vmem, ⟨10, _⟩ => ⟨S4000x64, .bf16⟩
  | .local _ .vmem, ⟨11, _⟩ => ⟨S4000x64, .bf16⟩
  | .local _ .vmem, ⟨12, _⟩ => ⟨S4000x128, .bf16⟩
  | .local _ .vmem, ⟨13, _⟩ => ⟨S4000x128, .bf16⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20_0 : Ref sig .tc := ⟨.hbm, 31, rfl⟩
abbrev main_v20_1 : Ref sig .tc := ⟨.hbm, 32, rfl⟩
abbrev main_v20_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_1 : Ref sig .tc := ⟨.hbm, 38, rfl⟩
abbrev main_v25 : Ref sig .tc := ⟨.hbm, 39, rfl⟩
abbrev main_v26 : Ref sig .tc := ⟨.hbm, 40, rfl⟩
abbrev main_c_2 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_3 : Ref sig .tc := ⟨.hbm, 48, rfl⟩
abbrev main_v33 : Ref sig .tc := ⟨.hbm, 49, rfl⟩
abbrev main_v34 : Ref sig .tc := ⟨.hbm, 50, rfl⟩
abbrev main_c_4 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_5 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_6 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4000x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4000x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  transposes_S64x64_S64x64_1_0 : S64x64.Transposes [1, 0] S64x64
  concatenates_S64x64_S64x64_S64x128_d1 : Shape.Concatenates [S64x64, S64x64] S64x128 1
  inb_S4000x64_S4000x64_0_0 : ∀ a, (![0, 0] : Fin 2 → Nat) a + S4000x64.size a ≤ S4000x64.size a
  h_S4000x64 : 0 < S4000x64.numel
  bitsLt_bf16_f32 : FTy.bits .bf16 < FTy.bits .f32
  shapeCasts_S4000x64_S4000x64 : S4000x64.ShapeCasts S4000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  packedbf16_S4000x64_S4000x64_0_0 : (Rect.unit (s := S4000x64) ![0, 0] S4000x64.size inb_S4000x64_S4000x64_0_0).PackedRows (EltTy.packing .bf16)
  inb_S4000x128_S4000x128_0_0 : ∀ a, (![0, 0] : Fin 2 → Nat) a + S4000x128.size a ≤ S4000x128.size a
  h_S4000x128 : 0 < S4000x128.numel
  packedbf16_S4000x128_S4000x128_0_0 : (Rect.unit (s := S4000x128) ![0, 0] S4000x128.size inb_S4000x128_S4000x128_0_0).PackedRows (EltTy.packing .bf16)
  slices_S1600000x128_S1600000x64_0_0 : S1600000x128.Slices ![0, 0] S1600000x64
  slices_S1600000x128_S1600000x64_0_64 : S1600000x128.Slices ![0, 64] S1600000x64
  reducesTo_S1600000x64_S1600000_d1 : S1600000x64.ReducesTo [1] S1600000
  h_S_ : 0 < S_.numel
  bcast_S1600000x1_S1600000x64_0_1 : S1600000x1.BroadcastsInDim S1600000x64 (![0, 1] : Fin 2 → Fin S1600000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S4000x64_S64x64_S4000x64_1_0_0_1_n_n_wf : DotDims.WF S4000x64 S64x64 S4000x64 [1] [0] [0] [1] [] []
  dot_S4000x64_S64x128_S4000x128_1_0_0_1_n_n_wf : DotDims.WF S4000x64 S64x128 S4000x128 [1] [0] [0] [1] [] []
  gather_S100000x128_S1600000x1_S1600000x128_1_0_n_n_0_1_1128_wf : GatherDims.WF S100000x128 S1600000x1 S1600000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S100000x64.size a
  hwx0_1 : ∀ i : grid0.Coords, EltTy.bits .f32 = 32 ∨ (Rect.block (s := S100000x64) S4000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .f32 = 32 ∨ (Rect.block (s := S64x128) S64x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x64.size a ≤ S100000x64.size a
  hwx0_6 : ∀ i : grid0.Coords, EltTy.bits .f32 = 32 ∨ (Rect.block (s := S100000x64) S4000x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x64.size a ≤ S100000x64.size a
  hwx0_7 : ∀ i : grid0.Coords, EltTy.bits .bf16 = 32 ∨ (Rect.block (s := S100000x64) S4000x64.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4000x128.size a ≤ S100000x128.size a
  hwx0_8 : ∀ i : grid0.Coords, EltTy.bits .bf16 = 32 ∨ (Rect.block (s := S100000x128) S4000x128.size (cc0_transform_8 i) (hinb0_8 i)).WholeWords (EltTy.packing .bf16)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf

abbrev win0_0 : Pipeline.Window sig grid0 :=
  Pipeline.Window.ofSpec (Memref.whole main_arg0) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20_0) S4000x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v20_1) S4000x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v20_2) S4000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩

abbrev nBuf : Space → Nat
  | .hbm => 78
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S2x1600000, .i32⟩
  | .hbm, ⟨3, _⟩ => ⟨S64x64, .f32⟩
  | .hbm, ⟨4, _⟩ => ⟨S64x64, .f32⟩
  | .hbm, ⟨5, _⟩ => ⟨S64x64, .f32⟩
  | .hbm, ⟨6, _⟩ => ⟨S64x64, .f32⟩
  | .hbm, ⟨7, _⟩ => ⟨S64x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S64x64, .f32⟩
  | .hbm, ⟨26, _⟩ => ⟨S100000x64, .f32⟩
  | .hbm, ⟨27, _⟩ => ⟨S64x64, .f32⟩
  | .hbm, ⟨28, _⟩ => ⟨S100000x64, .f32⟩
  | .hbm, ⟨29, _⟩ => ⟨S100000x64, .f32⟩
  | .hbm, ⟨30, _⟩ => ⟨S1x1600000, .i32⟩
  | .hbm, ⟨31, _⟩ => ⟨S1600000, .i32⟩
  | .hbm, ⟨32, _⟩ => ⟨S1x1600000, .i32⟩
  | .hbm, ⟨33, _⟩ => ⟨S1600000, .i32⟩
  | .hbm, ⟨34, _⟩ => ⟨S64x64, .f32⟩
  | .hbm, ⟨35, _⟩ => ⟨S100000x64, .f32⟩
  | .hbm, ⟨36, _⟩ => ⟨S64x64, .f32⟩
  | .hbm, ⟨37, _⟩ => ⟨S100000x64, .f32⟩
  | .hbm, ⟨38, _⟩ => ⟨S64x64, .f32⟩
  | .hbm, ⟨39, _⟩ => ⟨S100000x64, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x64, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x64, .f32⟩
  | .hbm, ⟨58, _⟩ => ⟨S1600000x64, .f32⟩
  | .hbm, ⟨59, _⟩ => ⟨S_, .f32⟩
  | .hbm, ⟨60, _⟩ => ⟨S1600000, .f32⟩
  | .hbm, ⟨61, _⟩ => ⟨S1600000x1, .f32⟩
  | .hbm, ⟨62, _⟩ => ⟨S_, .i32⟩
  | .hbm, ⟨63, _⟩ => ⟨S1600000, .i32⟩
  | .hbm, ⟨64, _⟩ => ⟨S1600000, .i1⟩
  | .hbm, ⟨65, _⟩ => ⟨S_, .i32⟩
  | .hbm, ⟨66, _⟩ => ⟨S1600000, .i32⟩
  | .hbm, ⟨67, _⟩ => ⟨S1600000, .i32⟩
  | .hbm, ⟨68, _⟩ => ⟨S1600000, .i32⟩
  | .hbm, ⟨69, _⟩ => ⟨S1600000x1, .i32⟩
  | .hbm, ⟨70, _⟩ => ⟨S1600000x64, .f32⟩
  | .hbm, ⟨71, _⟩ => ⟨S1600000x64, .f32⟩
  | .hbm, ⟨72, _⟩ => ⟨S1600000x64, .f32⟩
  | .hbm, ⟨73, _⟩ => ⟨S_, .f32⟩
  | .hbm, ⟨74, _⟩ => ⟨S100000x64, .f32⟩
  | .hbm, ⟨75, _⟩ => ⟨S1600000x1, .i32⟩
  | .hbm, ⟨76, _⟩ => ⟨S100000x64, .f32⟩
  | .hbm, ⟨77, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_1 : Ref sig .tc := ⟨.hbm, 40, rfl⟩
abbrev main_v29 : Ref sig .tc := ⟨.hbm, 41, rfl⟩
abbrev main_v30 : Ref sig .tc := ⟨.hbm, 42, rfl⟩
abbrev main_c_2 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c_3 : Ref sig .tc := ⟨.hbm, 49, rfl⟩
abbrev main_v36 : Ref sig .tc := ⟨.hbm, 50, rfl⟩
abbrev main_v37 : Ref sig .tc := ⟨.hbm, 51, rfl⟩
abbrev main_c_4 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_5 : Ref sig .tc := ⟨.hbm, 59, rfl⟩
abbrev main_v44 : Ref sig .tc := ⟨.hbm, 60, rfl⟩
abbrev main_v45 : Ref sig .tc := ⟨.hbm, 61, rfl⟩
abbrev main_c_6 : Ref sig .tc := ⟨.hbm, 62, rfl⟩
abbrev main_v46 : Ref sig .tc := ⟨.hbm, 63, rfl⟩
abbrev main_v47 : Ref sig .tc := ⟨.hbm, 64, rfl⟩
abbrev main_c_7 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_8 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  transposes_S64x64_S64x64_1_0 : S64x64.Transposes [1, 0] S64x64
  reducesTo_S1600000x64_S1600000_d1 : S1600000x64.ReducesTo [1] S1600000
  h_S_ : 0 < S_.numel
  bcast_S1600000x1_S1600000x64_0_1 : S1600000x1.BroadcastsInDim S1600000x64 (![0, 1] : Fin 2 → Fin S1600000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.LibMatmulIdx.lean ====
/-
  A TensorCore product of two matrices into a zero accumulator at exact arithmetic, read at an entry: the sum over
  the contracted axis of the products of the left factor's row entries with the right factor's column entries.
  Stated, as the host product's lemma is, for any contraction record between two-axis shapes whose operand indices
  are "row of the result, contracted position" and "contracted position, column of the result".
-/
import Idealize.ShloMosaic.Lib.ValueIdx
import Idealize.ShloMosaic.PureOps.Ideal.Laws

noncomputable section

namespace LibMatmulIdx

open Idealize.ShloMosaic Idealize.ShloMosaic.ValueIdx

/-- `tpu.matmul` of an M×K by a K×N matrix into the zero splat, at entry `j`: Σ_k l[j₀,k] · r[k,j₁]. -/
theorem matmul2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    FloatOps.matmul (F := Ideal) D prec l r (constant ⟨2, ![M, N]⟩ .f32 0x00000000#32) j
      = ∑ k : Fin K, l (ix2 (n0 := M) (n1 := K) (j 0) k) * r (ix2 (n0 := K) (n1 := N) k (j 1)) := by
  rw [Ideal.matmul_constant_zero_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibMatmulIdx

end
-- ==== Proof.Payload.lean ====
/-
  The three stored values of the projection kernel's body, read at an entry.  With exact arithmetic the
  roundings to bf16 on the way into the matrix unit are the identity, each product starts from a zero accumulator,
  and so at row p and column q of a block
    first output  : Σ_k x[p,k]·w0t[k,q] + Σ_k agg[p,k]·w1t[k,q]
    second output : Σ_k x[p,k]·wqt[k,q]
    third output  : Σ_k x[p,k]·wkvt[k,q]      (q over the 128 packed columns)
  where x, agg are the point's row blocks and the weights are whole.
-/
import proofs.«116022_j62242666053729_2_alg».proof.Proof.Gen.KernelIdeal.Skeleton
import proofs.«116022_j62242666053729_2_alg».proof.Proof.LibMatmulIdx
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.ValueIdx

/-- The 64-column contraction record: its index maps, coordinate by coordinate. -/
abbrev D64 : DotDims S4000x64 S64x64 S4000x64 := dot_S4000x64_S64x64_S4000x64_1_0_0_1_n_n
/-- The 128-column contraction record. -/
abbrev D128 : DotDims S4000x64 S64x128 S4000x128 := dot_S4000x64_S64x128_S4000x128_1_0_0_1_n_n

theorem d64_l0 (i : S4000x64.Idx) (q : D64.contr.Idx) : (D64.lhsIdx i q 0).val = (i 0).val := by
  unfold DotDims.lhsIdx
  rw [dif_neg (show ¬(0 : Fin S4000x64.rank) ∈ D64.lhsBatch by decide),
    dif_pos (show (0 : Fin S4000x64.rank) ∈ D64.lhsNonContracting by decide)]
  rfl
theorem d64_l1 (i : S4000x64.Idx) (q : D64.contr.Idx) : (D64.lhsIdx i q 1).val = (q ⟨0, by decide⟩).val :=
  D64.lhsIdx_val_of_single rfl i q
theorem d64_r0 (i : S4000x64.Idx) (q : D64.contr.Idx) : (D64.rhsIdx i q 0).val = (q ⟨0, by decide⟩).val :=
  D64.rhsIdx_val_of_single rfl i q
theorem d64_r1 (i : S4000x64.Idx) (q : D64.contr.Idx) : (D64.rhsIdx i q 1).val = (i 1).val := by
  unfold DotDims.rhsIdx
  rw [dif_neg (show ¬(1 : Fin S64x64.rank) ∈ D64.rhsBatch by decide),
    dif_pos (show (1 : Fin S64x64.rank) ∈ D64.rhsNonContracting by decide)]
  rfl

theorem d128_l0 (i : S4000x128.Idx) (q : D128.contr.Idx) : (D128.lhsIdx i q 0).val = (i 0).val := by
  unfold DotDims.lhsIdx
  rw [dif_neg (show ¬(0 : Fin S4000x64.rank) ∈ D128.lhsBatch by decide),
    dif_pos (show (0 : Fin S4000x64.rank) ∈ D128.lhsNonContracting by decide)]
  rfl
theorem d128_l1 (i : S4000x128.Idx) (q : D128.contr.Idx) : (D128.lhsIdx i q 1).val = (q ⟨0, by decide⟩).val :=
  D128.lhsIdx_val_of_single rfl i q
theorem d128_r0 (i : S4000x128.Idx) (q : D128.contr.Idx) : (D128.rhsIdx i q 0).val = (q ⟨0, by decide⟩).val :=
  D128.rhsIdx_val_of_single rfl i q
theorem d128_r1 (i : S4000x128.Idx) (q : D128.contr.Idx) : (D128.rhsIdx i q 1).val = (i 1).val := by
  unfold DotDims.rhsIdx
  rw [dif_neg (show ¬(1 : Fin S64x128.rank) ∈ D128.rhsBatch by decide),
    dif_pos (show (1 : Fin S64x128.rank) ∈ D128.rhsNonContracting by decide)]
  rfl

/-- One 64-column product of the body at an entry. -/
theorem mm64_apply {φ₁ φ₂ : FTy} (l : FVec Ideal S4000x64 φ₁) (r : FVec Ideal S64x64 φ₂) (p : Fin 4000) (q : Fin 64) :
    FloatOps.matmul (F := Ideal) D64 none l r (constant S4000x64 .f32 0x00000000#32) (ix2 p q)
      = ∑ k : Fin 64, l (ix2 p k) * r (ix2 k q) :=
  LibMatmulIdx.matmul2_apply D64 rfl rfl d64_l0 d64_l1 d64_r0 d64_r1 none l r (ix2 p q)

/-- The 128-column product of the body at an entry. -/
theorem mm128_apply {φ₁ φ₂ : FTy} (l : FVec Ideal S4000x64 φ₁) (r : FVec Ideal S64x128 φ₂) (p : Fin 4000) (q : Fin 128) :
    FloatOps.matmul (F := Ideal) D128 none l r (constant S4000x128 .f32 0x00000000#32) (ix2 p q)
      = ∑ k : Fin 64, l (ix2 p k) * r (ix2 k q) :=
  LibMatmulIdx.matmul2_apply D128 rfl rfl d128_l0 d128_l1 d128_r0 d128_r1 none l r (ix2 p q)

/-- The value stored to the first output. -/
theorem pay2_apply (x a : Vec Ideal S4000x64 .f32) (w0 w1 : Vec Ideal S64x64 .f32) (p : Fin 4000) (q : Fin 64) :
    k0_pay2 x a w0 w1 (ix2 p q)
      = (∑ k : Fin 64, x (ix2 p k) * w0 (ix2 k q)) + ∑ k : Fin 64, a (ix2 p k) * w1 (ix2 k q) := by
  unfold k0_pay2 k0_pay1
  simp only [shapeCast_self]
  exact congrArg₂ (· + ·) (mm64_apply _ _ p q) (mm64_apply _ _ p q)

/-- The value stored to the second output. -/
theorem pay3_apply (x : Vec Ideal S4000x64 .f32) (w : Vec Ideal S64x64 .f32) (p : Fin 4000) (q : Fin 64) :
    k0_pay3 x w (ix2 p q) = ∑ k : Fin 64, x (ix2 p k) * w (ix2 k q) := by
  unfold k0_pay3 k0_pay1
  simp only [shapeCast_self]
  exact mm64_apply _ _ p q

/-- The value stored to the third output. -/
theorem pay4_apply (x : Vec Ideal S4000x64 .f32) (w : Vec Ideal S64x128 .f32) (p : Fin 4000) (q : Fin 128) :
    k0_pay4 x w (ix2 p q) = ∑ k : Fin 64, x (ix2 p k) * w (ix2 k q) := by
  unfold k0_pay4 k0_pay1
  simp only [shapeCast_self]
  exact mm128_apply _ _ p q

end Cert.KernelIdeal.Hand

end
-- ==== Proof.Spec.lean ====
/-
  The node-wise projections as one function, and the reference's four matrix products read through it.
  `rowsTimes x w` is x·w for x : [100000, 64] and w : [64, D], entry by entry the sum over the 64 contracted
  positions.  The reference's x @ W0ᵀ, agg @ W1ᵀ, x @ WQᵀ, x @ WKᵀ, x @ WVᵀ are each `rowsTimes` of the left factor
  and the transposed weight; a sum over k in any grouping is the same extended real, so no finiteness is used.
-/
import proofs.«116022_j62242666053729_2_alg».proof.Proof.Gen.ReferenceIdeal.Read
import Idealize.ShloMosaic.Lib.ValueIdx

noncomputable section

namespace Cert.Spec

open Cert.ReferenceIdeal Cert.ReferenceIdeal.Read Idealize.ShloMosaic Idealize.ShloMosaic.ValueIdx

/-- Rows of `x` times the columns of `w`: entry (n, j) is Σ_k x[n,k]·w[k,j]. -/
def rowsTimes {D : Nat} (x : (⟨2, ![100000, 64]⟩ : Shape).Idx → EReal) (w : (⟨2, ![64, D]⟩ : Shape).Idx → EReal) :
    (⟨2, ![100000, D]⟩ : Shape).Idx → EReal :=
  fun i => ∑ k : Fin 64, x (ix2 (i 0) k) * w (ix2 k (i 1))

theorem rowsTimes_apply {D : Nat} (x : (⟨2, ![100000, 64]⟩ : Shape).Idx → EReal) (w : (⟨2, ![64, D]⟩ : Shape).Idx → EReal)
    (n : Fin 100000) (j : Fin D) : rowsTimes x w (ix2 n j) = ∑ k : Fin 64, x (ix2 n k) * w (ix2 k j) := rfl

/-- x @ W0ᵀ. -/
theorem v15_eq (x0 : (⟨S100000x64, .f32⟩ : BufTy).Contents (Elt Ideal)) (x3 : (⟨S64x64, .f32⟩ : BufTy).Contents (Elt Ideal)) :
    val_main_v15 (F := Ideal) x0 x3 = rowsTimes x0 (val_main_v14 (F := Ideal) x3) := by
  funext i
  rw [val_main_v15_apply]
  refine Finset.sum_congr rfl fun k _ => ?_
  refine congrArg₂ (· * ·) (congrArg x0 (funext fun a => ?_)) (congrArg _ (funext fun a => ?_))
  · match a with | ⟨0, _⟩ => rfl | ⟨1, _⟩ => rfl
  · match a with | ⟨0, _⟩ => rfl | ⟨1, _⟩ => rfl

/-- agg @ W1ᵀ. -/
theorem v17_eq (x0 : (⟨S100000x64, .f32⟩ : BufTy).Contents (Elt Ideal)) (x1 : (⟨S2x1600000, .i32⟩ : BufTy).Contents (Elt Ideal))
    (x4 : (⟨S64x64, .f32⟩ : BufTy).Contents (Elt Ideal)) :
    val_main_v17 (F := Ideal) x0 x1 x4 = rowsTimes (val_main_v13 (F := Ideal) x0 x1) (val_main_v16 (F := Ideal) x4) := by
  funext i
  rw [val_main_v17_apply]
  refine Finset.sum_congr rfl fun k _ => ?_
  refine congrArg₂ (· * ·) (congrArg _ (funext fun a => ?_)) (congrArg _ (funext fun a => ?_))
  · match a with | ⟨0, _⟩ => rfl | ⟨1, _⟩ => rfl
  · match a with | ⟨0, _⟩ => rfl | ⟨1, _⟩ => rfl

/-- x @ WQᵀ. -/
theorem v24_eq (x0 : (⟨S100000x64, .f32⟩ : BufTy).Contents (Elt Ideal)) (x5 : (⟨S64x64, .f32⟩ : BufTy).Contents (Elt Ideal)) :
    val_main_v24 (F := Ideal) x0 x5 = rowsTimes x0 (val_main_v23 (F := Ideal) x5) := by
  funext i
  rw [val_main_v24_apply]
  refine Finset.sum_congr rfl fun k _ => ?_
  refine congrArg₂ (· * ·) (congrArg x0 (funext fun a => ?_)) (congrArg _ (funext fun a => ?_))
  · match a with | ⟨0, _⟩ => rfl | ⟨1, _⟩ => rfl
  · match a with | ⟨0, _⟩ => rfl | ⟨1, _⟩ => rfl

/-- x @ WKᵀ. -/
theorem v26_eq (x0 : (⟨S100000x64, .f32⟩ : BufTy).Contents (Elt Ideal)) (x6 : (⟨S64x64, .f32⟩ : BufTy).Contents (Elt Ideal)) :
    val_main_v26 (F := Ideal) x0 x6 = rowsTimes x0 (val_main_v25 (F := Ideal) x6) := by
  funext i
  rw [val_main_v26_apply]
  refine Finset.sum_congr rfl fun k _ => ?_
  refine congrArg₂ (· * ·) (congrArg x0 (funext fun a => ?_)) (congrArg _ (funext fun a => ?_))
  · match a with | ⟨0, _⟩ => rfl | ⟨1, _⟩ => rfl
  · match a with | ⟨0, _⟩ => rfl | ⟨1, _⟩ => rfl

/-- x @ WVᵀ. -/
theorem v28_eq (x0 : (⟨S100000x64, .f32⟩ : BufTy).Contents (Elt Ideal)) (x7 : (⟨S64x64, .f32⟩ : BufTy).Contents (Elt Ideal)) :
    val_main_v28 (F := Ideal) x0 x7 = rowsTimes x0 (val_main_v27 (F := Ideal) x7) := by
  funext i
  rw [val_main_v28_apply]
  refine Finset.sum_congr rfl fun k _ => ?_
  refine congrArg₂ (· * ·) (congrArg x0 (funext fun a => ?_)) (congrArg _ (funext fun a => ?_))
  · match a with | ⟨0, _⟩ => rfl | ⟨1, _⟩ => rfl
  · match a with | ⟨0, _⟩ => rfl | ⟨1, _⟩ => rfl

/-- The self term plus the one-hop term: x·w0 + agg·w1, entry by entry. -/
def selfPlusHop (x agg : (⟨2, ![100000, 64]⟩ : Shape).Idx → EReal) (w0 w1 : (⟨2, ![64, 64]⟩ : Shape).Idx → EReal) :
    (⟨2, ![100000, 64]⟩ : Shape).Idx → EReal :=
  fun i => rowsTimes x w0 i + rowsTimes agg w1 i

/-- x1 = x @ W0ᵀ + agg @ W1ᵀ, over the projections. -/
theorem v18_eq (x0 : (⟨S100000x64, .f32⟩ : BufTy).Contents (Elt Ideal)) (x1 : (⟨S2x1600000, .i32⟩ : BufTy).Contents (Elt Ideal))
    (x3 x4 : (⟨S64x64, .f32⟩ : BufTy).Contents (Elt Ideal)) :
    val_main_v18 (F := Ideal) x0 x1 x3 x4
      = selfPlusHop x0 (val_main_v13 (F := Ideal) x0 x1) (val_main_v14 (F := Ideal) x3) (val_main_v16 (F := Ideal) x4) := by
  funext i
  show val_main_v15 (F := Ideal) x0 x3 i + val_main_v17 (F := Ideal) x0 x1 x4 i = _
  rw [v15_eq, v17_eq]
  rfl

end Cert.Spec

end
-- ==== Proof.KernelValue.lean ====
/-
  What the three output arrays of the projection kernel hold after its 25 grid points, at exact arithmetic.
  Point t reads rows 4000·t … 4000·t + 3999 of x and of agg and the whole of each weight matrix, and writes rows
  4000·t … 4000·t + 3999 of each output.  A row of x·w depends only on that row of x, so what a point writes back is
  its row block of ONE whole-array function of the arrays the region finds:
    first output  = x·w0t + agg·w1t,   second output = x·wqt,   third output = x·wkvt   (128 columns);
  the 25 blocks tile the 100000 rows, so each array ends holding that function.
-/
import proofs.«116022_j62242666053729_2_alg».proof.Proof.Gen.KernelIdeal.Frame
import proofs.«116022_j62242666053729_2_alg».proof.Proof.Payload
import proofs.«116022_j62242666053729_2_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx
open Cert.Spec (rowsTimes selfPlusHop rowsTimes_apply)

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the grid: a row-block window's block index is (t, 0), a weight's (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-- Row `p` of point `t`'s block is row 4000·t + p of the array. -/
def row (t : Fin cfg0.N) (p : Fin 4000) : Fin 100000 :=
  ⟨4000 * t.val + p.val, by have h := t.isLt; have hN : cfg0.N = 25 := N_0; omega⟩

/-! ## A block read at an entry, for any contents of the array -/

theorem rd0 (c : Dev nD) (t : Fin cfg0.N) (f : Buf (Elt Ideal) ((cfg0.win 0).arr.view.loc (c.tc : Thread nD τ)))
    (p : Fin 4000) (k : Fin 64) :
    ((cfg0.win 0).blk t).view.read (Elt Ideal) f (ix2 p k) = (f : S100000x64.Idx → EReal) (ix2 (row t p) k) := by
  have e0 : win0_0.index t (0 : Fin 2) = t.val := (idx_facts t).1
  have e1 : win0_0.index t (1 : Fin 2) = 0 := (idx_facts t).2.1
  have hemb : ((cfg0.win 0).blk t).view.emb (ix2 p k) = ix2 (row t p) k := by
    funext a; apply Fin.ext
    match a with
    | ⟨0, _⟩ => show win0_0.index t (0 : Fin 2) * 4000 + 1 * p.val = 4000 * t.val + p.val; rw [e0]; omega
    | ⟨1, _⟩ => show win0_0.index t (1 : Fin 2) * 64 + 1 * k.val = k.val; rw [e1]; omega
  show (f : S100000x64.Idx → EReal) (((cfg0.win 0).blk t).view.emb (ix2 p k)) = _
  rw [hemb]

theorem rd1 (c : Dev nD) (t : Fin cfg0.N) (f : Buf (Elt Ideal) ((cfg0.win 1).arr.view.loc (c.tc : Thread nD τ)))
    (p : Fin 4000) (k : Fin 64) :
    ((cfg0.win 1).blk t).view.read (Elt Ideal) f (ix2 p k) = (f : S100000x64.Idx → EReal) (ix2 (row t p) k) := by
  have e0 : win0_1.index t (0 : Fin 2) = t.val := (idx_facts t).2.2.1
  have e1 : win0_1.index t (1 : Fin 2) = 0 := (idx_facts t).2.2.2.1
  have hemb : ((cfg0.win 1).blk t).view.emb (ix2 p k) = ix2 (row t p) k := by
    funext a; apply Fin.ext
    match a with
    | ⟨0, _⟩ => show win0_1.index t (0 : Fin 2) * 4000 + 1 * p.val = 4000 * t.val + p.val; rw [e0]; omega
    | ⟨1, _⟩ => show win0_1.index t (1 : Fin 2) * 64 + 1 * k.val = k.val; rw [e1]; omega
  show (f : S100000x64.Idx → EReal) (((cfg0.win 1).blk t).view.emb (ix2 p k)) = _
  rw [hemb]

theorem rd2 (c : Dev nD) (t : Fin cfg0.N) (f : Buf (Elt Ideal) ((cfg0.win 2).arr.view.loc (c.tc : Thread nD τ)))
    (k : Fin 64) (q : Fin 64) :
    ((cfg0.win 2).blk t).view.read (Elt Ideal) f (ix2 k q) = (f : S64x64.Idx → EReal) (ix2 k q) := by
  have e0 : win0_2.index t (0 : Fin 2) = 0 := (idx_facts t).2.2.2.2.1
  have e1 : win0_2.index t (1 : Fin 2) = 0 := (idx_facts t).2.2.2.2.2.1
  have hemb : ((cfg0.win 2).blk t).view.emb (ix2 k q) = ix2 k q := by
    funext a; apply Fin.ext
    match a with
    | ⟨0, _⟩ => show win0_2.index t (0 : Fin 2) * 64 + 1 * k.val = k.val; rw [e0]; omega
    | ⟨1, _⟩ => show win0_2.index t (1 : Fin 2) * 64 + 1 * q.val = q.val; rw [e1]; omega
  show (f : S64x64.Idx → EReal) (((cfg0.win 2).blk t).view.emb (ix2 k q)) = _
  rw [hemb]

theorem rd3 (c : Dev nD) (t : Fin cfg0.N) (f : Buf (Elt Ideal) ((cfg0.win 3).arr.view.loc (c.tc : Thread nD τ)))
    (k : Fin 64) (q : Fin 64) :
    ((cfg0.win 3).blk t).view.read (Elt Ideal) f (ix2 k q) = (f : S64x64.Idx → EReal) (ix2 k q) := by
  have e0 : win0_3.index t (0 : Fin 2) = 0 := (idx_facts t).2.2.2.2.2.2.1
  have e1 : win0_3.index t (1 : Fin 2) = 0 := (idx_facts t).2.2.2.2.2.2.2.1
  have hemb : ((cfg0.win 3).blk t).view.emb (ix2 k q) = ix2 k q := by
    funext a; apply Fin.ext
    match a with
    | ⟨0, _⟩ => show win0_3.index t (0 : Fin 2) * 64 + 1 * k.val = k.val; rw [e0]; omega
    | ⟨1, _⟩ => show win0_3.index t (1 : Fin 2) * 64 + 1 * q.val = q.val; rw [e1]; omega
  show (f : S64x64.Idx → EReal) (((cfg0.win 3).blk t).view.emb (ix2 k q)) = _
  rw [hemb]

theorem rd4 (c : Dev nD) (t : Fin cfg0.N) (f : Buf (Elt Ideal) ((cfg0.win 4).arr.view.loc (c.tc : Thread nD τ)))
    (k : Fin 64) (q : Fin 64) :
    ((cfg0.win 4).blk t).view.read (Elt Ideal) f (ix2 k q) = (f : S64x64.Idx → EReal) (ix2 k q) := by
  have e0 : win0_4.index t (0 : Fin 2) = 0 := (idx_facts t).2.2.2.2.2.2.2.2.1
  have e1 : win0_4.index t (1 : Fin 2) = 0 := (idx_facts t).2.2.2.2.2.2.2.2.2.1
  have hemb : ((cfg0.win 4).blk t).view.emb (ix2 k q) = ix2 k q := by
    funext a; apply Fin.ext
    match a with
    | ⟨0, _⟩ => show win0_4.index t (0 : Fin 2) * 64 + 1 * k.val = k.val; rw [e0]; omega
    | ⟨1, _⟩ => show win0_4.index t (1 : Fin 2) * 64 + 1 * q.val = q.val; rw [e1]; omega
  show (f : S64x64.Idx → EReal) (((cfg0.win 4).blk t).view.emb (ix2 k q)) = _
  rw [hemb]

theorem rd5 (c : Dev nD) (t : Fin cfg0.N) (f : Buf (Elt Ideal) ((cfg0.win 5).arr.view.loc (c.tc : Thread nD τ)))
    (k : Fin 64) (q : Fin 128) :
    ((cfg0.win 5).blk t).view.read (Elt Ideal) f (ix2 k q) = (f : S64x128.Idx → EReal) (ix2 k q) := by
  have e0 : win0_5.index t (0 : Fin 2) = 0 := (idx_facts t).2.2.2.2.2.2.2.2.2.2.1
  have e1 : win0_5.index t (1 : Fin 2) = 0 := (idx_facts t).2.2.2.2.2.2.2.2.2.2.2.1
  have hemb : ((cfg0.win 5).blk t).view.emb (ix2 k q) = ix2 k q := by
    funext a; apply Fin.ext
    match a with
    | ⟨0, _⟩ => show win0_5.index t (0 : Fin 2) * 64 + 1 * k.val = k.val; rw [e0]; omega
    | ⟨1, _⟩ => show win0_5.index t (1 : Fin 2) * 128 + 1 * q.val = q.val; rw [e1]; omega
  show (f : S64x128.Idx → EReal) (((cfg0.win 5).blk t).view.emb (ix2 k q)) = _
  rw [hemb]

theorem rd6 (c : Dev nD) (t : Fin cfg0.N) (f : Buf (Elt Ideal) ((cfg0.win 6).arr.view.loc (c.tc : Thread nD τ)))
    (p : Fin 4000) (k : Fin 64) :
    ((cfg0.win 6).blk t).view.read (Elt Ideal) f (ix2 p k) = (f : S100000x64.Idx → EReal) (ix2 (row t p) k) := by
  have e0 : win0_6.index t (0 : Fin 2) = t.val := (idx_facts t).2.2.2.2.2.2.2.2.2.2.2.2.1
  have e1 : win0_6.index t (1 : Fin 2) = 0 := (idx_facts t).2.2.2.2.2.2.2.2.2.2.2.2.2.1
  have hemb : ((cfg0.win 6).blk t).view.emb (ix2 p k) = ix2 (row t p) k := by
    funext a; apply Fin.ext
    match a with
    | ⟨0, _⟩ => show win0_6.index t (0 : Fin 2) * 4000 + 1 * p.val = 4000 * t.val + p.val; rw [e0]; omega
    | ⟨1, _⟩ => show win0_6.index t (1 : Fin 2) * 64 + 1 * k.val = k.val; rw [e1]; omega
  show (f : S100000x64.Idx → EReal) (((cfg0.win 6).blk t).view.emb (ix2 p k)) = _
  rw [hemb]

theorem rd7 (c : Dev nD) (t : Fin cfg0.N) (f : Buf (Elt Ideal) ((cfg0.win 7).arr.view.loc (c.tc : Thread nD τ)))
    (p : Fin 4000) (k : Fin 64) :
    ((cfg0.win 7).blk t).view.read (Elt Ideal) f (ix2 p k) = (f : S100000x64.Idx → EReal) (ix2 (row t p) k) := by
  have e0 : win0_7.index t (0 : Fin 2) = t.val := (idx_facts t).2.2.2.2.2.2.2.2.2.2.2.2.2.2.1
  have e1 : win0_7.index t (1 : Fin 2) = 0 := (idx_facts t).2.2.2.2.2.2.2.2.2.2.2.2.2.2.2.1
  have hemb : ((cfg0.win 7).blk t).view.emb (ix2 p k) = ix2 (row t p) k := by
    funext a; apply Fin.ext
    match a with
    | ⟨0, _⟩ => show win0_7.index t (0 : Fin 2) * 4000 + 1 * p.val = 4000 * t.val + p.val; rw [e0]; omega
    | ⟨1, _⟩ => show win0_7.index t (1 : Fin 2) * 64 + 1 * k.val = k.val; rw [e1]; omega
  show (f : S100000x64.Idx → EReal) (((cfg0.win 7).blk t).view.emb (ix2 p k)) = _
  rw [hemb]

theorem rd8 (c : Dev nD) (t : Fin cfg0.N) (f : Buf (Elt Ideal) ((cfg0.win 8).arr.view.loc (c.tc : Thread nD τ)))
    (p : Fin 4000) (k : Fin 128) :
    ((cfg0.win 8).blk t).view.read (Elt Ideal) f (ix2 p k) = (f : S100000x128.Idx → EReal) (ix2 (row t p) k) := by
  have e0 : win0_8.index t (0 : Fin 2) = t.val := (idx_facts t).2.2.2.2.2.2.2.2.2.2.2.2.2.2.2.2.1
  have e1 : win0_8.index t (1 : Fin 2) = 0 := (idx_facts t).2.2.2.2.2.2.2.2.2.2.2.2.2.2.2.2.2
  have hemb : ((cfg0.win 8).blk t).view.emb (ix2 p k) = ix2 (row t p) k := by
    funext a; apply Fin.ext
    match a with
    | ⟨0, _⟩ => show win0_8.index t (0 : Fin 2) * 4000 + 1 * p.val = 4000 * t.val + p.val; rw [e0]; omega
    | ⟨1, _⟩ => show win0_8.index t (1 : Fin 2) * 128 + 1 * k.val = k.val; rw [e1]; omega
  show (f : S100000x128.Idx → EReal) (((cfg0.win 8).blk t).view.emb (ix2 p k)) = _
  rw [hemb]

/-! ## What the body leaves, for any contents of the input arrays -/

/-- First output: the stored block is block t of x·w0t + agg·w1t. -/
theorem out6_eq (c : Dev nD) (t : Fin cfg0.N)
    (X : Buf (Elt Ideal) ((cfg0.win 0).arr.view.loc (c.tc : Thread nD τ)))
    (A : Buf (Elt Ideal) ((cfg0.win 1).arr.view.loc (c.tc : Thread nD τ)))
    (W0 : Buf (Elt Ideal) ((cfg0.win 2).arr.view.loc (c.tc : Thread nD τ)))
    (W1 : Buf (Elt Ideal) ((cfg0.win 3).arr.view.loc (c.tc : Thread nD τ)))
    (x4 : Vec Ideal S64x64 .f32) (x5 : Vec Ideal S64x128 .f32) :
    out0_6 (((cfg0.win 0).blk t).view.read (Elt Ideal) X) (((cfg0.win 1).blk t).view.read (Elt Ideal) A)
        (((cfg0.win 2).blk t).view.read (Elt Ideal) W0) (((cfg0.win 3).blk t).view.read (Elt Ideal) W1) x4 x5
      = ((cfg0.win 6).blk t).view.read (Elt Ideal) (selfPlusHop X A W0 W1) := by
  unfold out0_6
  rw [View.canon_unit_zero hz]
  simp only [View.ld_unit_zero (S := S4000x64) hz, View.ld_unit_zero (S := S64x64) hz]
  funext j
  obtain ⟨p, q, rfl⟩ : ∃ (p : Fin 4000) (q : Fin 64), j = ix2 p q := ⟨j 0, j 1, eq_ix2 j⟩
  refine (pay2_apply _ _ _ _ p q).trans ?_
  rw [rd6 c t _ p q]
  show _ = rowsTimes _ _ (ix2 (row t p) q) + rowsTimes _ _ (ix2 (row t p) q)
  rw [rowsTimes_apply, rowsTimes_apply]
  refine congrArg₂ (· + ·) (Finset.sum_congr rfl fun k _ => ?_) (Finset.sum_congr rfl fun k _ => ?_)
  · rw [rd0 c t X p k, rd2 c t W0 k q]
  · rw [rd1 c t A p k, rd3 c t W1 k q]

/-- Second output: the stored block is block t of x·wqt. -/
theorem out7_eq (c : Dev nD) (t : Fin cfg0.N)
    (X : Buf (Elt Ideal) ((cfg0.win 0).arr.view.loc (c.tc : Thread nD τ)))
    (WQ : Buf (Elt Ideal) ((cfg0.win 4).arr.view.loc (c.tc : Thread nD τ)))
    (x1 : Vec Ideal S4000x64 .f32) (x2 x3 : Vec Ideal S64x64 .f32) (x5 : Vec Ideal S64x128 .f32) :
    out0_7 (((cfg0.win 0).blk t).view.read (Elt Ideal) X) x1 x2 x3
        (((cfg0.win 4).blk t).view.read (Elt Ideal) WQ) x5
      = ((cfg0.win 7).blk t).view.read (Elt Ideal) (rowsTimes X WQ) := by
  unfold out0_7
  rw [View.canon_unit_zero hz]
  simp only [View.ld_unit_zero (S := S4000x64) hz, View.ld_unit_zero (S := S64x64) hz]
  funext j
  obtain ⟨p, q, rfl⟩ : ∃ (p : Fin 4000) (q : Fin 64), j = ix2 p q := ⟨j 0, j 1, eq_ix2 j⟩
  refine (pay3_apply _ _ p q).trans ?_
  rw [rd7 c t _ p q]
  show _ = rowsTimes _ _ (ix2 (row t p) q)
  rw [rowsTimes_apply]
  refine Finset.sum_congr rfl fun k _ => ?_
  rw [rd0 c t X p k, rd4 c t WQ k q]

/-- Third output: the stored block is block t of x·wkvt. -/
theorem out8_eq (c : Dev nD) (t : Fin cfg0.N)
    (X : Buf (Elt Ideal) ((cfg0.win 0).arr.view.loc (c.tc : Thread nD τ)))
    (WKV : Buf (Elt Ideal) ((cfg0.win 5).arr.view.loc (c.tc : Thread nD τ)))
    (x1 : Vec Ideal S4000x64 .f32) (x2 x3 x4 : Vec Ideal S64x64 .f32) :
    out0_8 (((cfg0.win 0).blk t).view.read (Elt Ideal) X) x1 x2 x3 x4
        (((cfg0.win 5).blk t).view.read (Elt Ideal) WKV)
      = ((cfg0.win 8).blk t).view.read (Elt Ideal) (rowsTimes X WKV) := by
  unfold out0_8
  rw [View.canon_unit_zero hz]
  simp only [View.ld_unit_zero (S := S4000x64) hz, View.ld_unit_zero (S := S64x128) hz]
  funext j
  obtain ⟨p, q, rfl⟩ : ∃ (p : Fin 4000) (q : Fin 128), j = ix2 p q := ⟨j 0, j 1, eq_ix2 j⟩
  refine (pay4_apply _ _ p q).trans ?_
  rw [rd8 c t _ p q]
  show _ = rowsTimes _ _ (ix2 (row t p) q)
  rw [rowsTimes_apply]
  refine Finset.sum_congr rfl fun k _ => ?_
  rw [rd0 c t X p k, rd5 c t WKV k q]

/-! ## What a point writes back -/

theorem flushed6_eq (c : Dev nD) (t : Fin cfg0.N) :
    (dats m 0 c).flushed 6 t = ((cfg0.win 6).blk t).view.read (Elt Ideal)
      (selfPlusHop (V m c main_arg0) (V m c main_v13) (V m c main_v14) (V m c main_v15)) := by
  show (cfg0.win 6).cut (grid0.coords t) ((dats m 0 c).after 6 t) = _
  rw [after0_6]
  exact out6_eq c t (V m c (Pipeline.arrRef spec0 0)) (V m c (Pipeline.arrRef spec0 1)) (V m c (Pipeline.arrRef spec0 2))
    (V m c (Pipeline.arrRef spec0 3)) _ _

theorem flushed7_eq (c : Dev nD) (t : Fin cfg0.N) :
    (dats m 0 c).flushed 7 t = ((cfg0.win 7).blk t).view.read (Elt Ideal)
      (rowsTimes (V m c main_arg0) (V m c main_v16)) := by
  show (cfg0.win 7).cut (grid0.coords t) ((dats m 0 c).after 7 t) = _
  rw [after0_7]
  exact out7_eq c t (V m c (Pipeline.arrRef spec0 0)) (V m c (Pipeline.arrRef spec0 4)) _ _ _ _

theorem flushed8_eq (c : Dev nD) (t : Fin cfg0.N) :
    (dats m 0 c).flushed 8 t = ((cfg0.win 8).blk t).view.read (Elt Ideal)
      (rowsTimes (V m c main_arg0) (V m c main_v19)) := by
  show (cfg0.win 8).cut (grid0.coords t) ((dats m 0 c).after 8 t) = _
  rw [after0_8]
  exact out8_eq c t (V m c (Pipeline.arrRef spec0 0)) (V m c (Pipeline.arrRef spec0 5)) _ _ _ _

/-! ## The 25 row blocks tile each output array -/

/-- The point whose block holds row r: r / 4000. -/
def pointOf (r : Nat) (hr : r < 100000) : Fin cfg0.N := ⟨r / 4000, by have hN : cfg0.N = 25 := N_0; omega⟩

theorem cover6 (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  have e0 : win0_6.index (pointOf (i 0).val hi0) (0 : Fin 2) = (i 0).val / 4000 := (idx_facts _).2.2.2.2.2.2.2.2.2.2.2.2.1
  have e1 : win0_6.index (pointOf (i 0).val hi0) (1 : Fin 2) = 0 := (idx_facts _).2.2.2.2.2.2.2.2.2.2.2.2.2.1
  refine ⟨pointOf (i 0).val hi0, flush0_6 _, ?_⟩
  show i ∈ ((View.whole main_v20_0).slice (win0_6.rect (pointOf (i 0).val hi0))).set
  rw [View.set_slice_whole, Rect.mem_set_unit]
  intro a
  match a with
  | ⟨0, _⟩ =>
    show win0_6.index (pointOf (i 0).val hi0) (0 : Fin 2) * 4000 ≤ (i 0).val
      ∧ (i 0).val < win0_6.index (pointOf (i 0).val hi0) (0 : Fin 2) * 4000 + 4000
    rw [e0]; omega
  | ⟨1, _⟩ =>
    show win0_6.index (pointOf (i 0).val hi0) (1 : Fin 2) * 64 ≤ (i 1).val
      ∧ (i 1).val < win0_6.index (pointOf (i 0).val hi0) (1 : Fin 2) * 64 + 64
    rw [e1]; omega

theorem cover7 (i : S100000x64.Idx) :
    ∃ t : Fin cfg0.N, (cfg0.win 7).flush t = true ∧ i ∈ ((cfg0.win 7).blk t).view.set := by
  have hi0 : (i 0).val < 100000 := (i 0).isLt
  have hi1 : (i 1).val < 64 := (i 1).isLt
  have e0 : win0_7.index (pointOf (i 0).val hi0) (0 : Fin 2) = (i 0).val / 4000 := (idx_facts _).2.2.2.2.2.2.2.2.2.2.2.2.2.2.1
  have e1 : win0_7.index (pointOf (i 0).val hi0) (1 : Fin 2) = 0 := (idx_facts _).2.2.2.2.2.2.2.2.2.2.2.2.2.2.2.1
  refine ⟨pointOf (i 0).val hi0, flush0_7 _, ?_⟩
  show i ∈ ((View.whole main_v20_1).slice (win0_7.rect (pointOf (i 0).val hi0))).set
  rw [View.set_slice_whole, Rect.mem_set_unit]
  intro a
  match a with
  | ⟨0, _⟩ =>
    show win0_7.index (pointOf (i 0).val hi0) (0 : Fin 2) * 4000 ≤ (i 0).val
      ∧ (i 0).val < win0_7.index (pointOf (i 0).val hi0) (0 : Fin 2) * 4000 + 4000
    rw [e0]; omega
  | ⟨1, _⟩ =>
    show win0_7.index (pointOf (i 0).val hi0) (1 : Fin 2) * 64 ≤ (i 1).val
      ∧ (i 1).val < win0_7.index (pointOf (i 0).val hi0) (1 : Fin 2) * 64 + 64
    rw [e1]; omega

theorem cover8 (i : S100000x128.Idx) :
    ∃ t : Fin cfg0.N, (cfg0.win 8).flush t = true ∧ i ∈ ((cfg0.win 8).blk t).view.set := by
  have hi0 : (i 0).val < 100000 := (i 0).isLt
  have hi1 : (i 1).val < 128 := (i 1).isLt
  have e0 : win0_8.index (pointOf (i 0).val hi0) (0 : Fin 2) = (i 0).val / 4000 := (idx_facts _).2.2.2.2.2.2.2.2.2.2.2.2.2.2.2.2.1
  have e1 : win0_8.index (pointOf (i 0).val hi0) (1 : Fin 2) = 0 := (idx_facts _).2.2.2.2.2.2.2.2.2.2.2.2.2.2.2.2.2
  refine ⟨pointOf (i 0).val hi0, flush0_8 _, ?_⟩
  show i ∈ ((View.whole main_v20_2).slice (win0_8.rect (pointOf (i 0).val hi0))).set
  rw [View.set_slice_whole, Rect.mem_set_unit]
  intro a
  match a with
  | ⟨0, _⟩ =>
    show win0_8.index (pointOf (i 0).val hi0) (0 : Fin 2) * 4000 ≤ (i 0).val
      ∧ (i 0).val < win0_8.index (pointOf (i 0).val hi0) (0 : Fin 2) * 4000 + 4000
    rw [e0]; omega
  | ⟨1, _⟩ =>
    show win0_8.index (pointOf (i 0).val hi0) (1 : Fin 2) * 128 ≤ (i 1).val
      ∧ (i 1).val < win0_8.index (pointOf (i 0).val hi0) (1 : Fin 2) * 128 + 128
    rw [e1]; omega

/-! ## The three output arrays after the run -/

theorem final6 (c : Dev nD) : (dats m 0 c).arrAt 6 cfg0.N
    = selfPlusHop (V m c main_arg0) (V m c main_v13) (V m c main_v14) (V m c main_v15) :=
  (dats m 0 c).arrAt_eq_of_cover 6 _ (fun t _ => flushed6_eq m c t) cover6

theorem final7 (c : Dev nD) : (dats m 0 c).arrAt 7 cfg0.N = rowsTimes (V m c main_arg0) (V m c main_v16) :=
  (dats m 0 c).arrAt_eq_of_cover 7 _ (fun t _ => flushed7_eq m c t) cover7

theorem final8 (c : Dev nD) : (dats m 0 c).arrAt 8 cfg0.N = rowsTimes (V m c main_arg0) (V m c main_v19) :=
  (dats m 0 c).arrAt_eq_of_cover 8 _ (fun t _ => flushed8_eq m c t) cover8

end Cert.KernelIdeal.Hand

end
-- ==== Proof.LibRowGather.lean ====
/-
  A row gather read at an entry.  For a matrix `x : [N, D]` and a column of start indices `idx : [E, 1]`,
  `x[idx]` (offset axis 1, collapsed axis 0, start index map [0], slices of one whole row) has at entry (e, j)
  the matrix entry (r, j), where the row r is the e-th start index read as a signed integer and clamped into
  [0, N - 1].  The column j is untouched, so a gather of rows commutes with anything that acts column by column.
-/
import Idealize.ShloMosaic.Lib.ValueIdx

noncomputable section

namespace LibRowGather

open Idealize.ShloMosaic Idealize.ShloMosaic.ValueIdx

/-- The dimension numbers of a gather of whole rows: operand `[N, D]`, start indices `[E, 1]`, result `[E, D]`. -/
abbrev rowDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row a start index selects: the word read signed, clamped into `[0, N - 1]`. -/
def clampRow (N : Nat) (hN : 0 < N) {w : Nat} (v : BitVec w) : Fin N := ⟨min v.toInt.toNat (N - 1), by omega⟩

/-- THE ROW GATHER AT `(e, j)`: the operand's entry at the clamped row `idx[e, 0]` and the same column `j`. -/
theorem gather_rows_apply {α : Type} {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (j : Fin D) :
    Host.gather (rowDims N D E wf) x idx (ix2 e j)
      = x (ix2 (clampRow N hN (idx (ix2 e (0 : Fin 1)))) j) := by
  unfold Host.gather
  refine congrArg x (funext fun a => Fin.ext ?_)
  match a with
  | ⟨0, _⟩ =>
    show (rowDims N D E wf).start (ix2 e j) idx 0 + (rowDims N D E wf).batchCoord (ix2 e j) 0
      + (rowDims N D E wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D E wf).startIndexMap from List.mem_singleton.mpr rfl)]
    have hsi : (rowDims N D E wf).siIdx (ix2 e j) ⟨List.idxOf (0 : Fin 2) (rowDims N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N D E wf).start (ix2 e j) idx 1 + (rowDims N D E wf).batchCoord (ix2 e j) 1
      + (rowDims N D E wf).offCoord (ix2 e j) 1 = j.val
    rw [GatherDims.batchCoord_eq_zero _ _ _ List.not_mem_nil]
    unfold GatherDims.start
    rw [dif_neg (show ¬ (1 : Fin 2) ∈ (rowDims N D E wf).startIndexMap by
      show ¬ (1 : Fin 2) ∈ ([0] : List (Fin 2)); decide)]
    simp only [Nat.add_zero, Nat.zero_add]
    unfold GatherDims.offCoord
    rw [dif_pos ((GatherDims.mem_sKept _ _).mpr ⟨by show ¬ (1 : Fin 2) ∈ ([0] : List (Fin 2)); decide, List.not_mem_nil⟩)]
    rfl

end LibRowGather

end
-- ==== Proof.Bridge.lean ====
/-
  The edge gathers of the two programs are the same arrays.
  The kernel gathers rows of Q = x·wqt by the destination index and rows of the packed [K | V] = x·[wkt | wvt] by the
  source index, then cuts the packed rows into their first and last 64 columns; the reference gathers rows of
  K = x·wkt and V = x·wvt separately.  A row gather moves whole rows and leaves the column alone, column j of
  x·[wkt | wvt] is column j of x·wkt for j < 64 and column j - 64 of x·wvt otherwise, and a change of float format is the
  identity on extended reals.  So the three gathered arrays agree entry by entry.
-/
import proofs.«116022_j62242666053729_2_alg».proof.Proof.Gen.KernelIdeal
import proofs.«116022_j62242666053729_2_alg».proof.Proof.Spec
import proofs.«116022_j62242666053729_2_alg».proof.Proof.LibRowGather
import Idealize.ShloMosaic.Lib.Pipeline.Value
import Idealize.ShloMosaic.Lib.ValueIdx

noncomputable section

namespace Cert.Bridge

open Idealize.ShloMosaic Idealize.ShloMosaic.ValueIdx
open Cert.Spec (rowsTimes rowsTimes_apply)

/-- The kernel's 64-column row gather, the reference's, and the kernel's 128-column one are gathers of whole rows. -/
theorem gK64_eq : Cert.KernelIdeal.gather_S100000x64_S1600000x1_S1600000x64_1_0_n_n_0_1_164
    = LibRowGather.rowDims 100000 64 1600000 Cert.KernelIdeal.Facts₀.gather_S100000x64_S1600000x1_S1600000x64_1_0_n_n_0_1_164_wf := rfl
theorem gR64_eq : Cert.ReferenceIdeal.gather_S100000x64_S1600000x1_S1600000x64_1_0_n_n_0_1_164
    = LibRowGather.rowDims 100000 64 1600000 Cert.ReferenceIdeal.Facts₀.gather_S100000x64_S1600000x1_S1600000x64_1_0_n_n_0_1_164_wf := rfl
theorem gK128_eq : Cert.KernelIdeal.gather_S100000x128_S1600000x1_S1600000x128_1_0_n_n_0_1_1128
    = LibRowGather.rowDims 100000 128 1600000 Cert.KernelIdeal.Facts₀.gather_S100000x128_S1600000x1_S1600000x128_1_0_n_n_0_1_1128_wf := rfl

/-- Q gathered by the kernel (as bf16, then widened) is Q gathered by the reference. -/
theorem gatherQ_eq (q : (⟨2, ![100000, 64]⟩ : Shape).Idx → EReal) (idx : IVec Cert.KernelIdeal.S1600000x1 32) :
    (extf .f32 (Host.gather Cert.KernelIdeal.gather_S100000x64_S1600000x1_S1600000x64_1_0_n_n_0_1_164
        (q : FVec Ideal Cert.KernelIdeal.S100000x64 .bf16) idx) Cert.KernelIdeal.Facts₀.bitsLt_bf16_f32
      : FVec Ideal Cert.KernelIdeal.S1600000x64 .f32)
      = Host.gather Cert.ReferenceIdeal.gather_S100000x64_S1600000x1_S1600000x64_1_0_n_n_0_1_164
          (q : FVec Ideal Cert.ReferenceIdeal.S100000x64 .f32) idx := by
  funext i
  obtain ⟨e, j, rfl⟩ : ∃ (e : Fin 1600000) (j : Fin 64), i = ix2 e j := ⟨i 0, i 1, eq_ix2 i⟩
  rw [extf_apply, gK64_eq, gR64_eq, LibRowGather.gather_rows_apply (by norm_num)]

/-- The first 64 columns of the gathered packed rows are K gathered. -/
theorem gatherK_eq (x : (⟨2, ![100000, 64]⟩ : Shape).Idx → EReal) (a b : (⟨2, ![64, 64]⟩ : Shape).Idx → EReal)
    (idx : IVec Cert.KernelIdeal.S1600000x1 32) :
    extractStridedSlice Cert.KernelIdeal.S1600000x64 ![0, 0]
        (extf .f32 (Host.gather Cert.KernelIdeal.gather_S100000x128_S1600000x1_S1600000x128_1_0_n_n_0_1_1128
          (rowsTimes x (concatenate Cert.KernelIdeal.S64x128 1 [⟨Cert.KernelIdeal.S64x64, a⟩, ⟨Cert.KernelIdeal.S64x64, b⟩]
            Cert.KernelIdeal.Facts₀.concatenates_S64x64_S64x64_S64x128_d1) : FVec Ideal Cert.KernelIdeal.S100000x128 .bf16) idx)
          Cert.KernelIdeal.Facts₀.bitsLt_bf16_f32 : FVec Ideal Cert.KernelIdeal.S1600000x128 .f32)
        Cert.KernelIdeal.Facts₀.slices_S1600000x128_S1600000x64_0_0
      = Host.gather Cert.ReferenceIdeal.gather_S100000x64_S1600000x1_S1600000x64_1_0_n_n_0_1_164
          (rowsTimes x a : FVec Ideal Cert.ReferenceIdeal.S100000x64 .f32) idx := by
  funext i
  obtain ⟨e, j, rfl⟩ : ∃ (e : Fin 1600000) (j : Fin 64), i = ix2 e j := ⟨i 0, i 1, eq_ix2 i⟩
  have hj : j.val < 128 := by have := j.isLt; omega
  rw [extractStridedSlice_apply ![0, 0] _ _ (ix2 e j) (ix2 e (⟨j.val, hj⟩ : Fin 128)) (fun a => by
    match a with
    | ⟨0, _⟩ => show e.val = 0 + e.val; omega
    | ⟨1, _⟩ => show j.val = 0 + j.val; omega)]
  rw [extf_apply, gK128_eq, gR64_eq, LibRowGather.gather_rows_apply (by norm_num), LibRowGather.gather_rows_apply (by norm_num),
    rowsTimes_apply, rowsTimes_apply]
  refine Finset.sum_congr rfl fun k _ => congrArg (_ * ·) ?_
  exact concatenate_pair_apply_left (1 : Fin 2) a b _ (ix2 k (⟨j.val, hj⟩ : Fin 128)) rfl (ix2 k j) (fun d => by
    match d with
    | ⟨0, _⟩ => rfl
    | ⟨1, _⟩ => rfl)

/-- The last 64 columns of the gathered packed rows are V gathered. -/
theorem gatherV_eq (x : (⟨2, ![100000, 64]⟩ : Shape).Idx → EReal) (a b : (⟨2, ![64, 64]⟩ : Shape).Idx → EReal)
    (idx : IVec Cert.KernelIdeal.S1600000x1 32) :
    extractStridedSlice Cert.KernelIdeal.S1600000x64 ![0, 64]
        (extf .f32 (Host.gather Cert.KernelIdeal.gather_S100000x128_S1600000x1_S1600000x128_1_0_n_n_0_1_1128
          (rowsTimes x (concatenate Cert.KernelIdeal.S64x128 1 [⟨Cert.KernelIdeal.S64x64, a⟩, ⟨Cert.KernelIdeal.S64x64, b⟩]
            Cert.KernelIdeal.Facts₀.concatenates_S64x64_S64x64_S64x128_d1) : FVec Ideal Cert.KernelIdeal.S100000x128 .bf16) idx)
          Cert.KernelIdeal.Facts₀.bitsLt_bf16_f32 : FVec Ideal Cert.KernelIdeal.S1600000x128 .f32)
        Cert.KernelIdeal.Facts₀.slices_S1600000x128_S1600000x64_0_64
      = Host.gather Cert.ReferenceIdeal.gather_S100000x64_S1600000x1_S1600000x64_1_0_n_n_0_1_164
          (rowsTimes x b : FVec Ideal Cert.ReferenceIdeal.S100000x64 .f32) idx := by
  funext i
  obtain ⟨e, j, rfl⟩ : ∃ (e : Fin 1600000) (j : Fin 64), i = ix2 e j := ⟨i 0, i 1, eq_ix2 i⟩
  have hj : j.val + 64 < 128 := by have := j.isLt; omega
  rw [extractStridedSlice_apply ![0, 64] _ _ (ix2 e j) (ix2 e (⟨j.val + 64, hj⟩ : Fin 128)) (fun a => by
    match a with
    | ⟨0, _⟩ => show e.val = 0 + e.val; omega
    | ⟨1, _⟩ => show j.val + 64 = 64 + j.val; omega)]
  rw [extf_apply, gK128_eq, gR64_eq, LibRowGather.gather_rows_apply (by norm_num), LibRowGather.gather_rows_apply (by norm_num),
    rowsTimes_apply, rowsTimes_apply]
  refine Finset.sum_congr rfl fun k _ => congrArg (_ * ·) ?_
  exact concatenate_pair_apply_right (1 : Fin 2) a b _ (ix2 k (⟨j.val + 64, hj⟩ : Fin 128)) rfl rfl (ix2 k j) (fun d hd => by
    match d with
    | ⟨0, _⟩ => rfl
    | ⟨1, _⟩ => exact absurd rfl hd) rfl

end Cert.Bridge

end
-- ==== Proof.Tail.lean ====
/-
  The idealized kernel program's result as a function of its arguments.
  Before the region the host computes agg = segment_sum(x[src], dst), the five transposed weights and the packed
  [wkt | wvt]; the region leaves x1 = x·w0t + agg·w1t, Q = x·wqt and [K | V] = x·[wkt | wvt]; after it the host gathers
  Q by destination and the packed rows by source, cuts K and V out, forms the per-edge scores Σ_j Q·K, scales V by
  them, sums the edges into their destination rows and subtracts from x1.  The host operations before the region
  are the reference's own, the three region outputs are the reference's products (the modules beside this one), and
  the gathers agree entry by entry; every other operation is applied by both programs to equal operands.
-/
import proofs.«116022_j62242666053729_2_alg».proof.Proof.KernelValue
import proofs.«116022_j62242666053729_2_alg».proof.Proof.Bridge
import Idealize.ShloMosaic.Lib.StableHlo.Run

set_option maxRecDepth 16384

noncomputable section

open Idealize.ShloMosaic Idealize.ShloMosaic.TcCoe Idealize.SL.Sem Idealize.ShloMosaic.StableHlo
open Idealize.ShloMosaic.Pipeline (Dat)

namespace Cert.KernelIdeal.Hand

open Cert.KernelIdeal Cert.KernelIdeal.Gen Idealize.ShloMosaic.ValueIdx
open Cert.Spec (rowsTimes selfPlusHop)
open Cert.ReferenceIdeal.Read

variable (m : (ℓ : Loc nD τ sig) → Buf (Elt Ideal) ℓ) (ρ : Dev nD → PrngReg)

/-! ## What the region finds in the arrays the host wrote -/

set_option maxHeartbeats 8000000 in
theorem V13_eq (c : Dev nD) : (V m c main_v13 : S100000x64.Idx → EReal)
    = val_main_v13 (F := Ideal) (m ((c : Thread nD τ).loc main_arg0)) (m ((c : Thread nD τ).loc main_arg1)) := by
  show StableHlo.after hostOps0 (fun b => m (c, b)) (Proc.devRef .tc main_v13) = _
  after_results_simp
  rfl

set_option maxHeartbeats 8000000 in
theorem V14_eq (c : Dev nD) : (V m c main_v14 : S64x64.Idx → EReal)
    = val_main_v14 (F := Ideal) (m ((c : Thread nD τ).loc main_arg3)) := by
  show StableHlo.after hostOps0 (fun b => m (c, b)) (Proc.devRef .tc main_v14) = _
  after_results_simp
  rfl

set_option maxHeartbeats 8000000 in
theorem V15_eq (c : Dev nD) : (V m c main_v15 : S64x64.Idx → EReal)
    = val_main_v16 (F := Ideal) (m ((c : Thread nD τ).loc main_arg4)) := by
  show StableHlo.after hostOps0 (fun b => m (c, b)) (Proc.devRef .tc main_v15) = _
  after_results_simp
  rfl

set_option maxHeartbeats 8000000 in
theorem V16_eq (c : Dev nD) : (V m c main_v16 : S64x64.Idx → EReal)
    = val_main_v23 (F := Ideal) (m ((c : Thread nD τ).loc main_arg5)) := by
  show StableHlo.after hostOps0 (fun b => m (c, b)) (Proc.devRef .tc main_v16) = _
  after_results_simp
  rfl

set_option maxHeartbeats 8000000 in
theorem V19_eq (c : Dev nD) : (V m c main_v19 : S64x128.Idx → EReal)
    = concatenate S64x128 1 [⟨S64x64, val_main_v25 (F := Ideal) (m ((c : Thread nD τ).loc main_arg6))⟩,
        ⟨S64x64, val_main_v27 (F := Ideal) (m ((c : Thread nD τ).loc main_arg7))⟩] concatenates_S64x64_S64x64_S64x128_d1 := by
  show StableHlo.after hostOps0 (fun b => m (c, b)) (Proc.devRef .tc main_v19) = _
  after_results_simp
  rfl

/-! ## The program's result -/

set_option maxHeartbeats 16000000 in
/-- @main's result after the host operations that follow the region: the reference's expression of the arguments. -/
theorem result_eq (c : Dev nD) :
    Pipeline.afterTail₀ cfgs (dats m) 0 (V0 m) [hostOps1] c main_v51
      = val_main_v58 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  unfold Pipeline.afterTail₀
  generalize hW : Pipeline.withArrays (cfgs 0).spec c (V0 m c) (fun w => (dats m 0 c).arrAt w (cfgs 0).N) = W
  have h6 : W (Proc.devRef .tc main_v20_0)
      = selfPlusHop (V m c main_arg0) (V m c main_v13) (V m c main_v14) (V m c main_v15) := by
    rw [← hW]; exact (Pipeline.withArrays_arr spec0 launch0.win.arr_inj c _ _ 6).trans (final6 m c)
  have h7 : W (Proc.devRef .tc main_v20_1) = rowsTimes (V m c main_arg0) (V m c main_v16) := by
    rw [← hW]; exact (Pipeline.withArrays_arr spec0 launch0.win.arr_inj c _ _ 7).trans (final7 m c)
  have h8 : W (Proc.devRef .tc main_v20_2) = rowsTimes (V m c main_arg0) (V m c main_v19) := by
    rw [← hW]; exact (Pipeline.withArrays_arr spec0 launch0.win.arr_inj c _ _ 8).trans (final8 m c)
  have h2 : W (Proc.devRef .tc main_arg2) = m ((c : Thread nD τ).loc main_arg2) := by
    rw [← hW]
    exact (Pipeline.withArrays_of_ne _ c (V0 m c) _ main_arg2
      (by exact (by decide : ∀ w, Pipeline.arrRef spec0 w ≠ main_arg2))).trans (V_main_arg2 m c)
  show StableHlo.after hostOps1 W (Proc.devRef .tc main_v51) = _
  after_results_simp
  rw [h6, h7, h8, h2]
  rw [V_main_arg0 m c, V13_eq m c, V14_eq m c, V15_eq m c, V16_eq m c, V19_eq m c]
  rw [Cert.Bridge.gatherQ_eq, Cert.Bridge.gatherK_eq, Cert.Bridge.gatherV_eq]
  rw [← Cert.Spec.v18_eq, ← Cert.Spec.v24_eq, ← Cert.Spec.v26_eq, ← Cert.Spec.v28_eq]
  rfl

/-! ## The run -/

/-- Every weakly fair execution of the idealized kernel program terminates with its result at the reference's
    expression of the arguments, and the arguments unchanged: the generated frame run, its result read. -/
theorem run : θ_run defs (onTc (τ := τ) (main (F := Ideal))) ⟨m, fun _ => 0, ρ⟩ (fun r => ∀ c : Dev nD,
      r.2.mem ((c.tc : Thread nD τ).loc main_v51)
        = val_main_v58 (F := Ideal) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v51 (Pipeline.mem_restRefs_of main_v51 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.Hand

end
-- ==== Proof.lean ====
/-
  GD_Block: x1 - x2 with x1 = x·W0ᵀ + agg·W1ᵀ, agg the sum of x over incoming edges, and
  x2[n] = Σ_{e : dst2(e) = n} ⟨Q[dst2 e], K[src2 e]⟩ · V[src2 e],  Q = x·WQᵀ, K = x·WKᵀ, V = x·WVᵀ.
  The kernel program computes x1, Q and the packed [K | V] = x·[WKᵀ | WVᵀ] in one tiled kernel over 25 row blocks and
  does the edge gathers, the scores and the two edge sums on the host; the reference computes every product on the host.
  At exact arithmetic the two agree with no condition on the inputs: a product's row depends only on the same row of its
  left factor (so the row tiling changes nothing), column j of x·[WKᵀ | WVᵀ] is column j of x·WKᵀ or column j - 64 of
  x·WVᵀ, a row gather does not touch columns, the roundings to bf16 are the identity, and everything else is the same
  operation applied to equal arrays.  The three frames: the kernel programs' by their generated frame runs, the
  reference's by its generated run.  The idealization rewrote nothing.
-/
import proofs.«116022_j62242666053729_2_alg».proof.Defs
import proofs.«116022_j62242666053729_2_alg».proof.Proof.Gen.Kernel
import proofs.«116022_j62242666053729_2_alg».proof.Proof.Gen.Kernel.Frame
import proofs.«116022_j62242666053729_2_alg».proof.Proof.Gen.KernelIdeal
import proofs.«116022_j62242666053729_2_alg».proof.Proof.Gen.KernelIdeal.Frame
import proofs.«116022_j62242666053729_2_alg».proof.Proof.Gen.ReferenceIdeal
import proofs.«116022_j62242666053729_2_alg».proof.Proof.Gen.Pre_finite_inputs
import proofs.«116022_j62242666053729_2_alg».proof.Proof.Gen.ReferenceIdeal.Run
import proofs.«116022_j62242666053729_2_alg».proof.Proof.Gen.ReferenceIdeal.Read
import proofs.«116022_j62242666053729_2_alg».proof.Proof.Tail
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the reference's expression of the arguments, which agree. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v58_eq, (hagree c).1, (hagree c).2.1, (hagree c).2.2.1, (hagree c).2.2.2.1,
    (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
